-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x3072 : Shape := ⟨3, ![8, 512, 3072]⟩
abbrev S8x512x6 : Shape := ⟨3, ![8, 512, 6]⟩
abbrev S8x512x4 : Shape := ⟨3, ![8, 512, 4]⟩
abbrev S8x512x17x3 : Shape := ⟨4, ![8, 512, 17, 3]⟩
abbrev S8x512 : Shape := ⟨2, ![8, 512]⟩
abbrev S1024x3133 : Shape := ⟨2, ![1024, 3133]⟩
abbrev S1024 : Shape := ⟨1, ![1024]⟩
abbrev S_ : Shape := ⟨0, ![]⟩

class Facts : Prop where
  bcast_S_S8x512x3072 : S_.BroadcastsInDim S8x512x3072 (![] : Fin 0 → Fin S8x512x3072.rank)
  reducesTo_S8x512x3072_S_d0_1_2 : S8x512x3072.ReducesTo [0, 1, 2] S_
  h_S_ : 0 < S_.numel
  bcast_S_S8x512x6 : S_.BroadcastsInDim S8x512x6 (![] : Fin 0 → Fin S8x512x6.rank)
  reducesTo_S8x512x6_S_d0_1_2 : S8x512x6.ReducesTo [0, 1, 2] S_
  bcast_S_S8x512x4 : S_.BroadcastsInDim S8x512x4 (![] : Fin 0 → Fin S8x512x4.rank)
  reducesTo_S8x512x4_S_d0_1_2 : S8x512x4.ReducesTo [0, 1, 2] S_
  bcast_S_S8x512x17x3 : S_.BroadcastsInDim S8x512x17x3 (![] : Fin 0 → Fin S8x512x17x3.rank)
  reducesTo_S8x512x17x3_S_d0_1_2_3 : S8x512x17x3.ReducesTo [0, 1, 2, 3] S_
  bcast_S_S1024x3133 : S_.BroadcastsInDim S1024x3133 (![] : Fin 0 → Fin S1024x3133.rank)
  reducesTo_S1024x3133_S_d0_1 : S1024x3133.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x3133 .f32) (main_arg6 : FVec F S1024 .f32) (main_v13 : IVec S_ 1) (main_v16 : IVec S8x512x17x3 1) : IVec S_ 1 :=
  let main_c_5 : IVec S_ 1 := constantI S_ 1 1#1
  let main_v17 : IVec S_ 1 := (fun x v => Host.reduce IntOp.andi x v reducesTo_S8x512x17x3_S_d0_1_2_3 h_S_) main_v16 main_c_5
  let main_v18 : IVec S_ 1 := andi main_v13 main_v17
  let main_v19 : FVec F S1024x3133 .f32 := Host.absf main_arg5
  let main_cst_6 : FVec F S_ .f32 := constant S_ .f32 0x7F800000#32
  let main_v20 : FVec F S1024x3133 .f32 := broadcastInDim S1024x3133 ![] bcast_S_S1024x3133 main_cst_6
  let main_v21 : IVec S1024x3133 1 := cmpf .olt main_v19 main_v20
  let main_c_7 : IVec S_ 1 := constantI S_ 1 1#1
  let main_v22 : IVec S_ 1 := (fun x v => Host.reduce IntOp.andi x v reducesTo_S1024x3133_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x512x3072 .f32) (main_arg1 : FVec F S8x512x6 .f32) (main_arg2 : FVec F S8x512x4 .f32) (main_arg3 : FVec F S8x512x17x3 .f32) (main_arg4 : IVec S8x512 1) (main_arg5 : FVec F S1024x3133 .f32) (main_arg6 : FVec F S1024 .f32) : IVec S_ 1 :=
  let main_v0 : FVec F S8x512x3072 .f32 := Host.absf main_arg0
  let main_cst : FVec F S_ .f32 := constant S_ .f32 0x7F800000#32
  let main_v1 : FVec F S8x512x3072 .f32 := broadcastInDim S8x512x3072 ![] bcast_S_S8x512x3072 main_cst
  let main_v2 : IVec S8x512x3072 1 := cmpf .olt main_v0 main_v1
  let main_c : IVec S_ 1 := constantI S_ 1 1#1
  let main_v3 : IVec S_ 1 := (fun x v => Host.reduce IntOp.andi x v reducesTo_S8x512x3072_S_d0_1_2 h_S_) main_v2 main_c
  let main_v4 : FVec F S8x512x6 .f32 := Host.absf main_arg1
  let main_cst_0 : FVec F S_ .f32 := constant S_ .f32 0x7F800000#32
  let main_v5 : FVec F S8x512x6 .f32 := broadcastInDim S8x512x6 ![] bcast_S_S8x512x6 main_cst_0
  let main_v6 : IVec S8x512x6 1 := cmpf .olt main_v4 main_v5
  let main_c_1 : IVec S_ 1 := constantI S_ 1 1#1
  let main_v7 : IVec S_ 1 := (fun x v => Host.reduce IntOp.andi x v reducesTo_S8x512x6_S_d0_1_2 h_S_) main_v6 main_c_1
  let main_v8 : IVec S_ 1 := andi main_v3 main_v7
  let main_v9 : FVec F S8x512x4 .f32 := Host.absf main_arg2
  let main_cst_2 : FVec F S_ .f32 := constant S_ .f32 0x7F800000#32
  let main_v10 : FVec F S8x512x4 .f32 := broadcastInDim S8x512x4 ![] bcast_S_S8x512x4 main_cst_2
  let main_v11 : IVec S8x512x4 1 := cmpf .olt main_v9 main_v10
  let main_c_3 : IVec S_ 1 := constantI S_ 1 1#1
  let main_v12 : IVec S_ 1 := (fun x v => Host.reduce IntOp.andi x v reducesTo_S8x512x4_S_d0_1_2 h_S_) main_v11 main_c_3
  let main_v13 : IVec S_ 1 := andi main_v8 main_v12
  let main_v14 : FVec F S8x512x17x3 .f32 := Host.absf main_arg3
  let main_cst_4 : FVec F S_ .f32 := constant S_ .f32 0x7F800000#32
  let main_v15 : FVec F S8x512x17x3 .f32 := broadcastInDim S8x512x17x3 ![] bcast_S_S8x512x17x3 main_cst_4
  let main_v16 : IVec S8x512x17x3 1 := cmpf .olt main_v14 main_v15
  fn_part1 (F := F) main_arg5 main_arg6 main_v13 main_v16
-- ==== Kernel.lean ====
abbrev S8x512x3072 : Shape := ⟨3, ![8, 512, 3072]⟩
abbrev S8x512x6 : Shape := ⟨3, ![8, 512, 6]⟩
abbrev S8x512x4 : Shape := ⟨3, ![8, 512, 4]⟩
abbrev S8x512x17x3 : Shape := ⟨4, ![8, 512, 17, 3]⟩
abbrev S8x512 : Shape := ⟨2, ![8, 512]⟩
abbrev S1024x3133 : Shape := ⟨2, ![1024, 3133]⟩
abbrev S1024 : Shape := ⟨1, ![1024]⟩
abbrev S4096x3072 : Shape := ⟨2, ![4096, 3072]⟩
abbrev S4096x6 : Shape := ⟨2, ![4096, 6]⟩
abbrev S4096x4 : Shape := ⟨2, ![4096, 4]⟩
abbrev S4096x51 : Shape := ⟨2, ![4096, 51]⟩
abbrev S_ : Shape := ⟨0, ![]⟩
abbrev S4096x67 : Shape := ⟨2, ![4096, 67]⟩
abbrev S4096x128 : Shape := ⟨2, ![4096, 128]⟩
abbrev S4096x1 : Shape := ⟨2, ![4096, 1]⟩
abbrev S1x1024 : Shape := ⟨2, ![1, 1024]⟩
abbrev S3133x1024 : Shape := ⟨2, ![3133, 1024]⟩
abbrev S3072x1024 : Shape := ⟨2, ![3072, 1024]⟩
abbrev S61x1024 : Shape := ⟨2, ![61, 1024]⟩
abbrev S67x1024 : Shape := ⟨2, ![67, 1024]⟩
abbrev S128x1024 : Shape := ⟨2, ![128, 1024]⟩
abbrev S4096x1024 : Shape := ⟨2, ![4096, 1024]⟩
abbrev S512x3072 : Shape := ⟨2, ![512, 3072]⟩
abbrev S512x128 : Shape := ⟨2, ![512, 128]⟩
abbrev S512x1 : Shape := ⟨2, ![512, 1]⟩
abbrev S512x1024 : Shape := ⟨2, ![512, 1024]⟩
abbrev S8x512x1024 : Shape := ⟨3, ![8, 512, 1024]⟩

abbrev nBuf : Space → Nat
  | .hbm => 26
  | .vmem => 11
  | .smem => 0
  | _ => 0

abbrev bufTy : (tb : Table) → Fin (tcTables nBuf tb) → BufTy
  | .hbm, ⟨0, _⟩ => ⟨S8x512x3072, .f32⟩
  | .hbm, ⟨1, _⟩ => ⟨S8x512x6, .f32⟩
  | .hbm, ⟨2, _⟩ => ⟨S8x512x4, .f32⟩
  | .hbm, ⟨3, _⟩ => ⟨S8x512x17x3, .f32⟩
  | .hbm, ⟨4, _⟩ => ⟨S8x512, .i1⟩
  | .hbm, ⟨5, _⟩ => ⟨S1024x3133, .f32⟩
  | .hbm, ⟨6, _⟩ => ⟨S1024, .f32⟩
  | .hbm, ⟨7, _⟩ => ⟨S4096x3072, .f32⟩
  | .hbm, ⟨8, _⟩ => ⟨S4096x6, .f32⟩
  | .hbm, ⟨9, _⟩ => ⟨S4096x4, .f32⟩
  | .hbm, ⟨10, _⟩ => ⟨S4096x51, .f32⟩
  | .hbm, ⟨11, _⟩ => ⟨S_, .f32⟩
  | .hbm, ⟨12, _⟩ => ⟨S4096x67, .f32⟩
  | .hbm, ⟨13, _⟩ => ⟨S4096x128, .f32⟩
  | .hbm, ⟨14, _⟩ => ⟨S4096x1, .i1⟩
  | .hbm, ⟨15, _⟩ => ⟨S4096x1, .f32⟩
  | .hbm, ⟨16, _⟩ => ⟨S1x1024, .f32⟩
  | .hbm, ⟨17, _⟩ => ⟨S3133x1024, .f32⟩
  | .hbm, ⟨18, _⟩ => ⟨S3133x1024, .bf16⟩
  | .hbm, ⟨19, _⟩ => ⟨S3072x1024, .bf16⟩
  | .hbm, ⟨20, _⟩ => ⟨S61x1024, .bf16⟩
  | .hbm, ⟨21, _⟩ => ⟨S_, .bf16⟩
  | .hbm, ⟨22, _⟩ => ⟨S67x1024, .bf16⟩
  | .hbm, ⟨23, _⟩ => ⟨S128x1024, .bf16⟩
  | .hbm, ⟨24, _⟩ => ⟨S4096x1024, .f32⟩
  | .hbm, ⟨25, _⟩ => ⟨S8x512x1024, .f32⟩
  | .local _ .vmem, ⟨0, _⟩ => ⟨S512x3072, .f32⟩
  | .local _ .vmem, ⟨1, _⟩ => ⟨S512x3072, .f32⟩
  | .local _ .vmem, ⟨2, _⟩ => ⟨S512x128, .f32⟩
  | .local _ .vmem, ⟨3, _⟩ => ⟨S512x128, .f32⟩
  | .local _ .vmem, ⟨4, _⟩ => ⟨S3072x1024, .bf16⟩
  | .local _ .vmem, ⟨5, _⟩ => ⟨S128x1024, .bf16⟩
  | .local _ .vmem, ⟨6, _⟩ => ⟨S1x1024, .f32⟩
  | .local _ .vmem, ⟨7, _⟩ => ⟨S512x1, .f32⟩
  | .local _ .vmem, ⟨8, _⟩ => ⟨S512x1, .f32⟩
  | .local _ .vmem, ⟨9, _⟩ => ⟨S512x1024, .f32⟩
  | .local _ .vmem, ⟨10, _⟩ => ⟨S512x1024, .f32⟩
  | _, _ => ⟨S8x512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x512x3072_S4096x3072 : S8x512x3072.ShapeCasts S4096x3072
  shapeCasts_S8x512x6_S4096x6 : S8x512x6.ShapeCasts S4096x6
  shapeCasts_S8x512x4_S4096x4 : S8x512x4.ShapeCasts S4096x4
  shapeCasts_S8x512x17x3_S4096x51 : S8x512x17x3.ShapeCasts S4096x51
  bcast_S_S4096x67 : S_.BroadcastsInDim S4096x67 (![] : Fin 0 → Fin S4096x67.rank)
  concatenates_S4096x6_S4096x4_S4096x51_S4096x67_S4096x128_d1 : Shape.Concatenates [S4096x6, S4096x4, S4096x51, S4096x67] S4096x128 1
  shapeCasts_S8x512_S4096x1 : S8x512.ShapeCasts S4096x1
  shapeCasts_S1024_S1x1024 : S1024.ShapeCasts S1x1024
  transposes_S1024x3133_S3133x1024_1_0 : S1024x3133.Transposes [1, 0] S3133x1024
  bitsLt_bf16_f32 : FTy.bits .bf16 < FTy.bits .f32
  slices_S3133x1024_S3072x1024_0_0 : S3133x1024.Slices ![0, 0] S3072x1024
  slices_S3133x1024_S61x1024_3072_0 : S3133x1024.Slices ![3072, 0] S61x1024
  bcast_S_S67x1024 : S_.BroadcastsInDim S67x1024 (![] : Fin 0 → Fin S67x1024.rank)
  concatenates_S61x1024_S67x1024_S128x1024_d0 : Shape.Concatenates [S61x1024, S67x1024] S128x1024 0
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  shapeCasts_S4096x1024_S8x512x1024 : S4096x1024.ShapeCasts S8x512x1024
  dot_S512x3072_S3072x1024_S512x1024_1_0_0_1_n_n_wf : DotDims.WF S512x3072 S3072x1024 S512x1024 [1] [0] [0] [1] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S4096x3072.size a
  hwx0_0 : ∀ i : grid0.Coords, EltTy.bits .f32 = 32 ∨ (Rect.block (s := S4096x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S3072x1024.size a
  hwx0_2 : ∀ i : grid0.Coords, EltTy.bits .bf16 = 32 ∨ (Rect.block (s := S3072x1024) S3072x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .bf16 = 32 ∨ (Rect.block (s := S128x1024) S128x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)

variable [Facts₀]

def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3072x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x3072 : Shape := ⟨3, ![8, 512, 3072]⟩
abbrev S8x512x6 : Shape := ⟨3, ![8, 512, 6]⟩
abbrev S8x512x4 : Shape := ⟨3, ![8, 512, 4]⟩
abbrev S8x512x17x3 : Shape := ⟨4, ![8, 512, 17, 3]⟩
abbrev S8x512 : Shape := ⟨2, ![8, 512]⟩
abbrev S1024x3133 : Shape := ⟨2, ![1024, 3133]⟩
abbrev S1024 : Shape := ⟨1, ![1024]⟩
abbrev S8x512x51 : Shape := ⟨3, ![8, 512, 51]⟩
abbrev S8x512x3133 : Shape := ⟨3, ![8, 512, 3133]⟩
abbrev S8x512x1024 : Shape := ⟨3, ![8, 512, 1024]⟩
abbrev S1x1x1024 : Shape := ⟨3, ![1, 1, 1024]⟩
abbrev S8x512x1 : Shape := ⟨3, ![8, 512, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8x512x3072, .f32⟩
  | .hbm, ⟨1, _⟩ => ⟨S8x512x6, .f32⟩
  | .hbm, ⟨2, _⟩ => ⟨S8x512x4, .f32⟩
  | .hbm, ⟨3, _⟩ => ⟨S8x512x17x3, .f32⟩
  | .hbm, ⟨4, _⟩ => ⟨S8x512, .i1⟩
  | .hbm, ⟨5, _⟩ => ⟨S1024x3133, .f32⟩
  | .hbm, ⟨6, _⟩ => ⟨S1024, .f32⟩
  | .hbm, ⟨7, _⟩ => ⟨S8x512x51, .f32⟩
  | .hbm, ⟨8, _⟩ => ⟨S8x512x3133, .f32⟩
  | .hbm, ⟨9, _⟩ => ⟨S8x512x1024, .f32⟩
  | .hbm, ⟨10, _⟩ => ⟨S1x1x1024, .f32⟩
  | .hbm, ⟨11, _⟩ => ⟨S8x512x1024, .f32⟩
  | .hbm, ⟨12, _⟩ => ⟨S8x512x1024, .f32⟩
  | .hbm, ⟨13, _⟩ => ⟨S8x512x1, .i1⟩
  | .hbm, ⟨14, _⟩ => ⟨S_, .f32⟩
  | .hbm, ⟨15, _⟩ => ⟨S8x512x1024, .i1⟩
  | .hbm, ⟨16, _⟩ => ⟨S8x512x1024, .f32⟩
  | .hbm, ⟨17, _⟩ => ⟨S8x512x1024, .f32⟩
  | _, _ => ⟨S8x512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  shapeCasts_S8x512x17x3_S8x512x51 : S8x512x17x3.ShapeCasts S8x512x51
  concatenates_S8x512x3072_S8x512x6_S8x512x4_S8x512x51_S8x512x3133_d2 : Shape.Concatenates [S8x512x3072, S8x512x6, S8x512x4, S8x512x51] S8x512x3133 2
  bcast_S1024_S1x1x1024_2 : S1024.BroadcastsInDim S1x1x1024 (![2] : Fin 1 → Fin S1x1x1024.rank)
  bcast_S1x1x1024_S8x512x1024_0_1_2 : S1x1x1024.BroadcastsInDim S8x512x1024 (![0, 1, 2] : Fin 3 → Fin S8x512x1024.rank)
  bcast_S8x512_S8x512x1_0_1 : S8x512.BroadcastsInDim S8x512x1 (![0, 1] : Fin 2 → Fin S8x512x1.rank)
  bcast_S8x512x1_S8x512x1024_0_1_2 : S8x512x1.BroadcastsInDim S8x512x1024 (![0, 1, 2] : Fin 3 → Fin S8x512x1024.rank)
  bcast_S_S8x512x1024 : S_.BroadcastsInDim S8x512x1024 (![] : Fin 0 → Fin S8x512x1024.rank)
  dot_S8x512x3133_S1024x3133_S8x512x1024_2_1_01_0_n_n_wf : DotDims.WF S8x512x3133 S1024x3133 S8x512x1024 [2] [1] [0, 1] [0] [] []

variable [Facts₀]

def dot_S8x512x3133_S1024x3133_S8x512x1024_2_1_01_0_n_n : DotDims S8x512x3133 S1024x3133 S8x512x1024 where
  lhsContracting := [2]
  rhsContracting := [1]
  lhsNonContracting := [0, 1]
  rhsNonContracting := [0]
  lhsBatch := []
  rhsBatch := []
  wf := dot_S8x512x3133_S1024x3133_S8x512x1024_2_1_01_0_n_n_wf

class Facts : Prop extends Facts₀ where

variable [Facts]
-- ==== Proof.FrameBits.lean ====
/-
  The run of the whole program: the host lines re-lay the arguments into seven arrays, one pipelined region of
  8 grid points computes a 512 x 1024 block of the result per point, and one host line re-lays the result.

  At a point the body reads its six input blocks whole, and writes the output block whole with one value
  computed from the six; it keeps nothing between points.  So after the body each input buffer still holds its
  block, the output buffer holds that value of the point's input blocks, and the region ends with every
  array it does not write unchanged.  No host line writes an argument, so the arguments end as launched.
  Everything here holds at every float instance.
-/
import proofs.«163188_g40767829574297_cont_8to1_b_728_15_alg».proof.Proof.Gen.Kernel.Launch
import proofs.«163188_g40767829574297_cont_8to1_b_728_15_alg».proof.Proof.Gen.Kernel.Skeleton
import proofs.«163188_g40767829574297_cont_8to1_b_728_15_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What the buffers hold when the region is entered: the launch contents after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the region's seven arrays: its one result is the re-laid output. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an input the body
    leaves in place keeps the block of an index that has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input the body
    leaves in place keeps the block of an index that has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input the body
    leaves in place keeps the block of an index that has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input the body
    leaves in place keeps the block of an index that has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input the body
    leaves in place keeps the block of an index that has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an input the body
    leaves in place keeps the block of an index that has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's frame post: an array no window stages ends as the lines after
    the region leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## What the body leaves in the output buffer -/

/-- The whole 512 x 1024 buffer. -/
abbrev rOut : Rect S512x1024 := Rect.unit (s := S512x1024) ![0, 0] S512x1024.size inb_S512x1024_S512x1024_0_0
abbrev rIn0 : Rect S512x3072 := Rect.unit (s := S512x3072) ![0, 0] S512x3072.size inb_S512x3072_S512x3072_0_0
abbrev rIn1 : Rect S512x128 := Rect.unit (s := S512x128) ![0, 0] S512x128.size inb_S512x128_S512x128_0_0
abbrev rIn2 : Rect S3072x1024 := Rect.unit (s := S3072x1024) ![0, 0] S3072x1024.size inb_S3072x1024_S3072x1024_0_0
abbrev rIn3 : Rect S128x1024 := Rect.unit (s := S128x1024) ![0, 0] S128x1024.size inb_S128x1024_S128x1024_0_0
abbrev rIn4 : Rect S1x1024 := Rect.unit (s := S1x1024) ![0, 0] S1x1024.size inb_S1x1024_S1x1024_0_0
abbrev rIn5 : Rect S512x1 := Rect.unit (s := S512x1) ![0, 0] S512x1.size inb_S512x1_S512x1_0_0

/-- The output buffer after the body: its one whole-buffer store, of the value computed from the six input blocks. -/
def outBlk (x0 : Vec F S512x3072 .f32) (x1 : Vec F S512x128 .f32) (x2 : Vec F S3072x1024 .bf16) (x3 : Vec F S128x1024 .bf16)
    (x4 : Vec F S1x1024 .f32) (x5 : Vec F S512x1 .f32) : Vec F S512x1024 .f32 :=
  View.canon [⟨rOut, k0_pay1 (View.ld x0 rIn0) (View.ld x2 rIn2) (View.ld x1 rIn1) (View.ld x3 rIn3) (View.ld x4 rIn4) (View.ld x5 rIn5)⟩]

/-- The one store covers the buffer. -/
theorem outCover (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

/-! ## The body's triple -/

set_option maxHeartbeats 1000000 in
/-- The body on whole staging buffers, the inputs' at contents `xW` and the output's at anything, runs to the
    continuation holding the inputs' as they were and the output's at `outBlk` of the inputs'. -/
theorem sound_kernel (c : Dev nD) (E : Set ℕ) (i : grid0.Coords)
    (arg1 : Memref sig .tc .vmem S512x3072 .f32) (harg1 : arg1.IsWhole) (arg2 : Memref sig .tc .vmem S512x128 .f32) (harg2 : arg2.IsWhole)
    (arg3 : Memref sig .tc .vmem S3072x1024 .bf16) (harg3 : arg3.IsWhole) (arg4 : Memref sig .tc .vmem S128x1024 .bf16) (harg4 : arg4.IsWhole)
    (arg5 : Memref sig .tc .vmem S1x1024 .f32) (harg5 : arg5.IsWhole) (arg6 : Memref sig .tc .vmem S512x1 .f32) (harg6 : arg6.IsWhole)
    (arg7 : Memref sig .tc .vmem S512x1024 .f32) (harg7 : arg7.IsWhole)
    (x0 : Vec F S512x3072 .f32) (x1 : Vec F S512x128 .f32) (x2 : Vec F S3072x1024 .bf16) (x3 : Vec F S128x1024 .bf16)
    (x4 : Vec F S1x1024 .f32) (x5 : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The region's proof data -/

/-- After the body at point `t`: each input's buffer at its block, the output's at `outBlk` of the input blocks; the
    region keeps nothing else, owes nothing, and holds every buffer whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = outBlk (iblk m c 0 t) (iblk m c 1 t) (iblk m c 2 t) (iblk m c 3 t) (iblk m c 4 t) (iblk m c 5 t) := by
  dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every array of the region at what
    the points' write-backs make of it and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, nothing faults, and its seven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Frm

end
-- ==== Proof.FrameIdeal.lean ====
/-
  The run of the whole program: the host lines re-lay the arguments into seven arrays, one pipelined region of
  8 grid points computes a 512 x 1024 block of the result per point, and one host line re-lays the result.

  At a point the body reads its six input blocks whole, and writes the output block whole with one value
  computed from the six; it keeps nothing between points.  So after the body each input buffer still holds its
  block, the output buffer holds that value of the point's input blocks, and the region ends with every
  array it does not write unchanged.  No host line writes an argument, so the arguments end as launched.
  Everything here holds at every float instance.
-/
import proofs.«163188_g40767829574297_cont_8to1_b_728_15_alg».proof.Proof.Gen.KernelIdeal.Launch
import proofs.«163188_g40767829574297_cont_8to1_b_728_15_alg».proof.Proof.Gen.KernelIdeal.Skeleton
import proofs.«163188_g40767829574297_cont_8to1_b_728_15_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What the buffers hold when the region is entered: the launch contents after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the region's seven arrays: its one result is the re-laid output. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an input the body
    leaves in place keeps the block of an index that has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an input the body
    leaves in place keeps the block of an index that has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an input the body
    leaves in place keeps the block of an index that has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an input the body
    leaves in place keeps the block of an index that has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an input the body
    leaves in place keeps the block of an index that has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an input the body
    leaves in place keeps the block of an index that has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's frame post: an array no window stages ends as the lines after
    the region leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## What the body leaves in the output buffer -/

/-- The whole 512 x 1024 buffer. -/
abbrev rOut : Rect S512x1024 := Rect.unit (s := S512x1024) ![0, 0] S512x1024.size inb_S512x1024_S512x1024_0_0
abbrev rIn0 : Rect S512x3072 := Rect.unit (s := S512x3072) ![0, 0] S512x3072.size inb_S512x3072_S512x3072_0_0
abbrev rIn1 : Rect S512x128 := Rect.unit (s := S512x128) ![0, 0] S512x128.size inb_S512x128_S512x128_0_0
abbrev rIn2 : Rect S3072x1024 := Rect.unit (s := S3072x1024) ![0, 0] S3072x1024.size inb_S3072x1024_S3072x1024_0_0
abbrev rIn3 : Rect S128x1024 := Rect.unit (s := S128x1024) ![0, 0] S128x1024.size inb_S128x1024_S128x1024_0_0
abbrev rIn4 : Rect S1x1024 := Rect.unit (s := S1x1024) ![0, 0] S1x1024.size inb_S1x1024_S1x1024_0_0
abbrev rIn5 : Rect S512x1 := Rect.unit (s := S512x1) ![0, 0] S512x1.size inb_S512x1_S512x1_0_0

/-- The output buffer after the body: its one whole-buffer store, of the value computed from the six input blocks. -/
def outBlk (x0 : Vec F S512x3072 .f32) (x1 : Vec F S512x128 .f32) (x2 : Vec F S3072x1024 .bf16) (x3 : Vec F S128x1024 .bf16)
    (x4 : Vec F S1x1024 .f32) (x5 : Vec F S512x1 .f32) : Vec F S512x1024 .f32 :=
  View.canon [⟨rOut, k0_pay1 (View.ld x0 rIn0) (View.ld x2 rIn2) (View.ld x1 rIn1) (View.ld x3 rIn3) (View.ld x4 rIn4) (View.ld x5 rIn5)⟩]

/-- The one store covers the buffer. -/
theorem outCover (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

/-! ## The body's triple -/

set_option maxHeartbeats 1000000 in
/-- The body on whole staging buffers, the inputs' at contents `xW` and the output's at anything, runs to the
    continuation holding the inputs' as they were and the output's at `outBlk` of the inputs'. -/
theorem sound_kernel (c : Dev nD) (E : Set ℕ) (i : grid0.Coords)
    (arg1 : Memref sig .tc .vmem S512x3072 .f32) (harg1 : arg1.IsWhole) (arg2 : Memref sig .tc .vmem S512x128 .f32) (harg2 : arg2.IsWhole)
    (arg3 : Memref sig .tc .vmem S3072x1024 .bf16) (harg3 : arg3.IsWhole) (arg4 : Memref sig .tc .vmem S128x1024 .bf16) (harg4 : arg4.IsWhole)
    (arg5 : Memref sig .tc .vmem S1x1024 .f32) (harg5 : arg5.IsWhole) (arg6 : Memref sig .tc .vmem S512x1 .f32) (harg6 : arg6.IsWhole)
    (arg7 : Memref sig .tc .vmem S512x1024 .f32) (harg7 : arg7.IsWhole)
    (x0 : Vec F S512x3072 .f32) (x1 : Vec F S512x128 .f32) (x2 : Vec F S3072x1024 .bf16) (x3 : Vec F S128x1024 .bf16)
    (x4 : Vec F S1x1024 .f32) (x5 : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The region's proof data -/

/-- After the body at point `t`: each input's buffer at its block, the output's at `outBlk` of the input blocks; the
    region keeps nothing else, owes nothing, and holds every buffer whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = outBlk (iblk m c 0 t) (iblk m c 1 t) (iblk m c 2 t) (iblk m c 3 t) (iblk m c 4 t) (iblk m c 5 t) := by
  dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every array of the region at what
    the points' write-backs make of it and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end, nothing faults, and its seven arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Frm

end
-- ==== Proof.Payload.lean ====
/-
  The kernel body's one stored value, read at an entry of the 512 x 1024 block.
-/
import proofs.«163188_g40767829574297_cont_8to1_b_728_15_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Idealize.ShloMosaic Idealize.ShloMosaic.ValueIdx

/-- The left operand's index of the 512 x 3072 by 3072 x 1024 product keeps the result's row. -/
theorem lhs_wide_0 (i : S512x1024.Idx) (q : dot_S512x3072_S3072x1024_S512x1024_1_0_0_1_n_n.contr.Idx) :
    (dot_S512x3072_S3072x1024_S512x1024_1_0_0_1_n_n.lhsIdx i q 0).val = (i 0).val := by
  unfold DotDims.lhsIdx
  rw [dif_neg (show ¬(0 : Fin S512x3072.rank) ∈ dot_S512x3072_S3072x1024_S512x1024_1_0_0_1_n_n.lhsBatch by decide), dif_pos (show (0 : Fin S512x3072.rank) ∈ dot_S512x3072_S3072x1024_S512x1024_1_0_0_1_n_n.lhsNonContracting by decide)]
  rfl
/-- Its column is the contracted coordinate. -/
theorem lhs_wide_1 (i : S512x1024.Idx) (q : dot_S512x3072_S3072x1024_S512x1024_1_0_0_1_n_n.contr.Idx) :
    (dot_S512x3072_S3072x1024_S512x1024_1_0_0_1_n_n.lhsIdx i q 1).val = (q ⟨0, by decide⟩).val :=
  dot_S512x3072_S3072x1024_S512x1024_1_0_0_1_n_n.lhsIdx_val_of_single rfl i q
/-- The right operand's row is the contracted coordinate. -/
theorem rhs_wide_0 (i : S512x1024.Idx) (q : dot_S512x3072_S3072x1024_S512x1024_1_0_0_1_n_n.contr.Idx) :
    (dot_S512x3072_S3072x1024_S512x1024_1_0_0_1_n_n.rhsIdx i q 0).val = (q ⟨0, by decide⟩).val :=
  dot_S512x3072_S3072x1024_S512x1024_1_0_0_1_n_n.rhsIdx_val_of_single rfl i q
/-- Its column is the result's column. -/
theorem rhs_wide_1 (i : S512x1024.Idx) (q : dot_S512x3072_S3072x1024_S512x1024_1_0_0_1_n_n.contr.Idx) :
    (dot_S512x3072_S3072x1024_S512x1024_1_0_0_1_n_n.rhsIdx i q 1).val = (i 1).val := by
  unfold DotDims.rhsIdx
  rw [dif_neg (show ¬(1 : Fin S3072x1024.rank) ∈ dot_S512x3072_S3072x1024_S512x1024_1_0_0_1_n_n.rhsBatch by decide), dif_pos (show (1 : Fin S3072x1024.rank) ∈ dot_S512x3072_S3072x1024_S512x1024_1_0_0_1_n_n.rhsNonContracting by decide)]
  rfl

/-- The 512 x 3072 by 3072 x 1024 product accumulated into zero, at entry (r, n): the inner product of row r with column n. -/
theorem mm_wide_at (a : FVec Ideal S512x3072 .bf16) (b : FVec Ideal S3072x1024 .bf16) (r : Fin 512) (n : Fin 1024) :
    matmul (F := Ideal) dot_S512x3072_S3072x1024_S512x1024_1_0_0_1_n_n none a b (constant (F := Ideal) S512x1024 .f32 0x00000000#32) (ix2 r n)
      = ∑ k : Fin 3072, a (ix2 r k) * b (ix2 k n) := by
  show FloatOps.matmul dot_S512x3072_S3072x1024_S512x1024_1_0_0_1_n_n none a b (constant (F := Ideal) S512x1024 .f32 0x00000000#32) (ix2 r n) = _
  rw [Ideal.matmul_constant_zero_apply, ← Equiv.sum_comp (ValueIdx.contrEquiv1 dot_S512x3072_S3072x1024_S512x1024_1_0_0_1_n_n 3072 rfl rfl).symm]
  refine Finset.sum_congr rfl fun k _ => ?_
  have hk := ValueIdx.contrEquiv1_symm_val dot_S512x3072_S3072x1024_S512x1024_1_0_0_1_n_n 3072 rfl rfl k
  have el : dot_S512x3072_S3072x1024_S512x1024_1_0_0_1_n_n.lhsIdx (ix2 r n) ((ValueIdx.contrEquiv1 dot_S512x3072_S3072x1024_S512x1024_1_0_0_1_n_n 3072 rfl rfl).symm k) = ix2 r k := funext fun c => Fin.ext (by
    match c with
    | ⟨0, _⟩ => exact lhs_wide_0 _ _
    | ⟨1, _⟩ => exact (lhs_wide_1 _ _).trans hk)
  have er : dot_S512x3072_S3072x1024_S512x1024_1_0_0_1_n_n.rhsIdx (ix2 r n) ((ValueIdx.contrEquiv1 dot_S512x3072_S3072x1024_S512x1024_1_0_0_1_n_n 3072 rfl rfl).symm k) = ix2 k n := funext fun c => Fin.ext (by
    match c with
    | ⟨0, _⟩ => exact (rhs_wide_0 _ _).trans hk
    | ⟨1, _⟩ => exact rhs_wide_1 _ _)
  rw [el, er]

/-- The left operand's index of the 512 x 128 by 128 x 1024 product keeps the result's row. -/
theorem lhs_narrow_0 (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide), dif_pos (show (0 : Fin S512x128.rank) ∈ dot_S512x128_S128x1024_S512x1024_1_0_0_1_n_n.lhsNonContracting by decide)]
  rfl
/-- Its column is the contracted coordinate. -/
theorem lhs_narrow_1 (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
/-- The right operand's row is the contracted coordinate. -/
theorem rhs_narrow_0 (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q
/-- Its column is the result's column. -/
theorem rhs_narrow_1 (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide), dif_pos (show (1 : Fin S128x1024.rank) ∈ dot_S512x128_S128x1024_S512x1024_1_0_0_1_n_n.rhsNonContracting by decide)]
  rfl

/-- The 512 x 128 by 128 x 1024 product accumulated into zero, at entry (r, n): the inner product of row r with column n. -/
theorem mm_narrow_at (a : FVec Ideal S512x128 .bf16) (b : FVec Ideal S128x1024 .bf16) (r : Fin 512) (n : Fin 1024) :
    matmul (F := Ideal) dot_S512x128_S128x1024_S512x1024_1_0_0_1_n_n none a b (constant (F := Ideal) S512x1024 .f32 0x00000000#32) (ix2 r n)
      = ∑ k : Fin 128, a (ix2 r k) * b (ix2 k n) := by
  show FloatOps.matmul dot_S512x128_S128x1024_S512x1024_1_0_0_1_n_n none a b (constant (F := Ideal) S512x1024 .f32 0x00000000#32) (ix2 r n) = _
  rw [Ideal.matmul_constant_zero_apply, ← Equiv.sum_comp (ValueIdx.contrEquiv1 dot_S512x128_S128x1024_S512x1024_1_0_0_1_n_n 128 rfl rfl).symm]
  refine Finset.sum_congr rfl fun k _ => ?_
  have hk := ValueIdx.contrEquiv1_symm_val dot_S512x128_S128x1024_S512x1024_1_0_0_1_n_n 128 rfl rfl k
  have el : dot_S512x128_S128x1024_S512x1024_1_0_0_1_n_n.lhsIdx (ix2 r n) ((ValueIdx.contrEquiv1 dot_S512x128_S128x1024_S512x1024_1_0_0_1_n_n 128 rfl rfl).symm k) = ix2 r k := funext fun c => Fin.ext (by
    match c with
    | ⟨0, _⟩ => exact lhs_narrow_0 _ _
    | ⟨1, _⟩ => exact (lhs_narrow_1 _ _).trans hk)
  have er : dot_S512x128_S128x1024_S512x1024_1_0_0_1_n_n.rhsIdx (ix2 r n) ((ValueIdx.contrEquiv1 dot_S512x128_S128x1024_S512x1024_1_0_0_1_n_n 128 rfl rfl).symm k) = ix2 k n := funext fun c => Fin.ext (by
    match c with
    | ⟨0, _⟩ => exact (rhs_narrow_0 _ _).trans hk
    | ⟨1, _⟩ => exact rhs_narrow_1 _ _)
  rw [el, er]

/-- Entry (r, n) of the stored block: the two partial inner products of row r with column n, plus the bias
    entry n, times the mask entry of row r. -/
theorem pay_at (v0 : Vec Ideal S512x3072 .f32) (v3 : Vec Ideal S3072x1024 .bf16) (v6 : Vec Ideal S512x128 .f32)
    (v9 : Vec Ideal S128x1024 .bf16) (v13 : Vec Ideal S1x1024 .f32) (v17 : Vec Ideal S512x1 .f32)
    (r : Fin 512) (n : Fin 1024) :
    Gen.k0_pay1 (F := Ideal) v0 v3 v6 v9 v13 v17 (ix2 r n)
      = (((∑ k : Fin 3072, v0 (ix2 r k) * v3 (ix2 k n)) + (∑ k : Fin 128, v6 (ix2 r k) * v9 (ix2 k n)))
          + v13 (ix2 (0 : Fin 1) n)) * v17 (ix2 r (0 : Fin 1)) := by
  unfold Gen.k0_pay1
  simp only [shapeCast_self]
  have hrow : broadcastTo S512x1024 v13 Gen.broadcasts_S1x1024_S512x1024 (ix2 r n) = v13 (ix2 (0 : Fin 1) n) :=
    broadcastTo_apply v13 Gen.broadcasts_S1x1024_S512x1024 (ix2 r n) (ix2 (0 : Fin 1) n) (fun a => match a with
      | ⟨0, _⟩ => by show (0 : Nat) = if (1 : Nat) = 1 then 0 else r.val; rw [if_pos rfl]
      | ⟨1, _⟩ => by show n.val = if (1024 : Nat) = 1 then 0 else n.val; rw [if_neg (by decide)])
  have hcol : broadcastTo S512x1024 v17 Gen.broadcasts_S512x1_S512x1024 (ix2 r n) = v17 (ix2 r (0 : Fin 1)) :=
    broadcastTo_apply v17 Gen.broadcasts_S512x1_S512x1024 (ix2 r n) (ix2 r (0 : Fin 1)) (fun a => match a with
      | ⟨0, _⟩ => by show r.val = if (512 : Nat) = 1 then 0 else r.val; rw [if_neg (by decide)]
      | ⟨1, _⟩ => by show (0 : Nat) = if (1 : Nat) = 1 then 0 else n.val; rw [if_pos rfl])
  rw [mulf_apply, addf_apply, addf_apply, hrow, hcol, mm_wide_at, mm_narrow_at]
  rfl

end Cert.KernelIdeal.Payload

end
-- ==== Proof.Spec.lean ====
/-
  The mathematics both programs compute, stated once and free of either program.

  A token row (b, s) carries 3133 features: 3072 embedding entries, then 6 visibility scores, 4 box
  coordinates and the 17 × 3 keypoint entries flattened row-major.  The result at (b, s, t) is the row's
  inner product with row t of the weight matrix plus the bias b[t] where the row's mask bit is set, and 0
  where it is not.

  One program forms the inner product over all 3133 features at once and selects by the bit.  The other
  splits the features into the first 3072 and the remaining 61, pads the 61 with 67 zero features (against 67
  zero weight rows), adds the two partial inner products and the bias, and multiplies by the bit read as the
  number 0 or 1.  The two laws below join them: a sum over 3072 + 61 indices is the sum of the two partial
  sums, zero-weighted terms add nothing (in the extended reals x * 0 = 0 for every x, infinite or not), and
  x * 1 = x, x * 0 = 0 turn the product with the bit's number into the selection.  No finiteness is needed:
  only commutative-monoid laws of + and the absorbing 0 of * are used.
-/
import Idealize.ShloMosaic.PureOps.Ideal
import Idealize.ShloMosaic.Lib.ValueIdx
import Mathlib.Algebra.BigOperators.Fin

noncomputable section

open scoped BigOperators

namespace Cert.MaskedProj

open Idealize.ShloMosaic Idealize.ShloMosaic.ValueIdx

/-- Feature `k` of token row `(b, s)`: the embedding below 3072, then the visibility scores, the box, and the
    keypoints flattened as `3 * joint + coordinate`. -/
def featRow (x0 : FVec Ideal ⟨3, ![8, 512, 3072]⟩ .f32) (x1 : FVec Ideal ⟨3, ![8, 512, 6]⟩ .f32)
    (x2 : FVec Ideal ⟨3, ![8, 512, 4]⟩ .f32) (x3 : FVec Ideal ⟨4, ![8, 512, 17, 3]⟩ .f32)
    (b : Fin 8) (s : Fin 512) (k : Fin 3133) : EReal :=
  if h0 : k.val < 3072 then x0 (ix3 b s ⟨k.val, h0⟩)
  else if h1 : k.val < 3078 then x1 (ix3 b s ⟨k.val - 3072, by omega⟩)
  else if h2 : k.val < 3082 then x2 (ix3 b s ⟨k.val - 3078, by omega⟩)
  else x3 (ix4 b s ⟨(k.val - 3082) / 3, by have := k.isLt; omega⟩ ⟨(k.val - 3082) % 3, by omega⟩)

/-- The masked projection: at `(b, s, t)`, the features' inner product with weight row `t` plus the bias where
    the row's bit is set, else 0. -/
def maskedProj (x0 : FVec Ideal ⟨3, ![8, 512, 3072]⟩ .f32) (x1 : FVec Ideal ⟨3, ![8, 512, 6]⟩ .f32)
    (x2 : FVec Ideal ⟨3, ![8, 512, 4]⟩ .f32) (x3 : FVec Ideal ⟨4, ![8, 512, 17, 3]⟩ .f32)
    (x4 : IVec ⟨2, ![8, 512]⟩ 1) (x5 : FVec Ideal ⟨2, ![1024, 3133]⟩ .f32) (x6 : FVec Ideal ⟨1, ![1024]⟩ .f32) :
    FVec Ideal ⟨3, ![8, 512, 1024]⟩ .f32 :=
  fun i => Scalar.select (x4 (ix2 (i 0) (i 1)))
    ((∑ k : Fin 3133, featRow x0 x1 x2 x3 (i 0) (i 1) k * x5 (ix2 (i 2) k)) + x6 (ix1 (i 2))) 0

/-- A sum over 3133 = 3072 + 61 features is the sum over the first 3072 plus the sum over 128 padded
    ones, when the padded sum's first 61 terms are the remaining features' and its last 67 weights are 0. -/
theorem sum_split (f w : Fin 3133 → EReal) (X We : Fin 3072 → EReal) (S Ws : Fin 128 → EReal)
    (hX : ∀ k : Fin 3072, X k = f ⟨k.val, by have := k.isLt; omega⟩)
    (hWe : ∀ k : Fin 3072, We k = w ⟨k.val, by have := k.isLt; omega⟩)
    (hS : ∀ (k : Fin 128) (h : k.val < 61), S k = f ⟨3072 + k.val, by omega⟩)
    (hWs : ∀ (k : Fin 128) (h : k.val < 61), Ws k = w ⟨3072 + k.val, by omega⟩)
    (hWs0 : ∀ k : Fin 128, 61 ≤ k.val → Ws k = 0) :
    (∑ k : Fin 3072, X k * We k) + (∑ k : Fin 128, S k * Ws k) = ∑ k : Fin 3133, f k * w k := by
  have e1 : (∑ k : Fin 3133, f k * w k) = ∑ k : Fin (3072 + 61), f ⟨k.val, k.isLt⟩ * w ⟨k.val, k.isLt⟩ := rfl
  have e2 : (∑ k : Fin 128, S k * Ws k) = ∑ k : Fin (61 + 67), S ⟨k.val, k.isLt⟩ * Ws ⟨k.val, k.isLt⟩ := rfl
  rw [e1, e2, Fin.sum_univ_add, Fin.sum_univ_add]
  have z : (∑ k : Fin 67, S ⟨(Fin.natAdd 61 k).val, (Fin.natAdd 61 k).isLt⟩ * Ws ⟨(Fin.natAdd 61 k).val, (Fin.natAdd 61 k).isLt⟩) = 0 :=
    Finset.sum_eq_zero fun k _ => by
      rw [hWs0 _ (by simp only [Fin.natAdd]; omega), mul_zero]
  rw [z, add_zero]
  congr 1
  · exact Finset.sum_congr rfl fun k _ => by rw [hX, hWe]; rfl
  · exact Finset.sum_congr rfl fun k _ => by
      rw [hS _ (by simp only [Fin.castAdd, Fin.castLE]; exact k.isLt), hWs _ (by simp only [Fin.castAdd, Fin.castLE]; exact k.isLt)]
      rfl

/-- The product with the mask bit read as the number 0 or 1 is the selection by the bit. -/
theorem mul_bit (x : EReal) (b : BitVec 1) : x * ((b.toNat : ℝ) : EReal) = Scalar.select b x 0 := by
  rcases (by decide : ∀ b : BitVec 1, b = 0#1 ∨ b = 1#1) b with rfl | rfl
  · rw [select_zero]; simp
  · rw [select_one]; simp

end Cert.MaskedProj

end
-- ==== Proof.HostArrays.lean ====
/-
  The six arrays the host lines hand to the kernel, each as a function of the program's arguments and read at
  an index: the embeddings and the mask re-laid as 4096 rows, the 61 small features padded to 128 columns,
  the transposed weights cut into their first 3072 rows and their last 61 rows padded to 128, the bias as one row.
-/
import proofs.«163188_g40767829574297_cont_8to1_b_728_15_alg».proof.Proof.Gen.KernelIdeal
import proofs.«163188_g40767829574297_cont_8to1_b_728_15_alg».proof.Proof.Spec
import Idealize.ShloMosaic.Lib.ValueIdx
import Idealize.ShloMosaic.Lib.Pipeline.Value
import Idealize.ShloMosaic.Lib.ValueLayout
import Idealize.ShloMosaic.Lib.IdealHost

noncomputable section

namespace Cert.KernelIdeal.HostArrays

open Cert.KernelIdeal Cert.KernelIdeal.Facts₀ Idealize.ShloMosaic Idealize.ShloMosaic.ValueIdx

/-- Row 512 * t + r of a 4096-row array. -/
def row (t : Fin 8) (r : Fin 512) : Fin 4096 := ⟨512 * t.val + r.val, by have := t.isLt; have := r.isLt; omega⟩

def embRows (x0 : FVec Ideal S8x512x3072 .f32) : FVec Ideal S4096x3072 .f32 :=
  shapeCast S4096x3072 x0 shapeCasts_S8x512x3072_S4096x3072

def smallRows (x1 : FVec Ideal S8x512x6 .f32) (x2 : FVec Ideal S8x512x4 .f32) (x3 : FVec Ideal S8x512x17x3 .f32) :
    FVec Ideal S4096x128 .f32 :=
  concatenate S4096x128 1 [⟨S4096x6, shapeCast S4096x6 x1 shapeCasts_S8x512x6_S4096x6⟩,
    ⟨S4096x4, shapeCast S4096x4 x2 shapeCasts_S8x512x4_S4096x4⟩,
    ⟨S4096x51, shapeCast S4096x51 x3 shapeCasts_S8x512x17x3_S4096x51⟩,
    ⟨S4096x67, broadcastInDim S4096x67 ![] bcast_S_S4096x67 (constant (F := Ideal) S_ .f32 0x00000000#32)⟩]
    concatenates_S4096x6_S4096x4_S4096x51_S4096x67_S4096x128_d1

def wT (x5 : FVec Ideal S1024x3133 .f32) : FVec Ideal S3133x1024 .bf16 :=
  truncf .bf16 (transpose S3133x1024 [1, 0] x5 transposes_S1024x3133_S3133x1024_1_0) bitsLt_bf16_f32

def wEmb (x5 : FVec Ideal S1024x3133 .f32) : FVec Ideal S3072x1024 .bf16 :=
  extractStridedSlice S3072x1024 ![0, 0] (wT x5) slices_S3133x1024_S3072x1024_0_0

def wSmall (x5 : FVec Ideal S1024x3133 .f32) : FVec Ideal S128x1024 .bf16 :=
  concatenate S128x1024 0 [⟨S61x1024, extractStridedSlice S61x1024 ![3072, 0] (wT x5) slices_S3133x1024_S61x1024_3072_0⟩,
    ⟨S67x1024, broadcastInDim S67x1024 ![] bcast_S_S67x1024 (constant (F := Ideal) S_ .bf16 0x0000#16)⟩]
    concatenates_S61x1024_S67x1024_S128x1024_d0

def biasRow (x6 : FVec Ideal S1024 .f32) : FVec Ideal S1x1024 .f32 :=
  shapeCast S1x1024 x6 shapeCasts_S1024_S1x1024

def maskCol (x4 : IVec S8x512 1) : FVec Ideal S4096x1 .f32 :=
  uitofp .f32 (shapeCast S4096x1 x4 shapeCasts_S8x512_S4096x1)

theorem embRows_at (x0 : FVec Ideal S8x512x3072 .f32) (t : Fin 8) (r : Fin 512) (k : Fin 3072) :
    embRows x0 (ix2 (row t r) k) = x0 (ix3 t r k) := by
  unfold embRows
  exact shapeCast_apply x0 shapeCasts_S8x512x3072_S4096x3072 (ix2 (row t r) k) (ix3 t r k)
    (by rewrite [Shape.rowMajor_val_three, Shape.rowMajor_val_two]
        show (t.val * 512 + r.val) * 3072 + k.val = (512 * t.val + r.val) * 3072 + k.val
        omega)

theorem smallRows_at (x0 : FVec Ideal S8x512x3072 .f32) (x1 : FVec Ideal S8x512x6 .f32) (x2 : FVec Ideal S8x512x4 .f32)
    (x3 : FVec Ideal S8x512x17x3 .f32) (t : Fin 8) (r : Fin 512) (k : Fin 128) (h : k.val < 61) :
    smallRows x1 x2 x3 (ix2 (row t r) k) = Cert.MaskedProj.featRow x0 x1 x2 x3 t r ⟨3072 + k.val, by omega⟩ := by
  have hk := k.isLt
  unfold smallRows Cert.MaskedProj.featRow
  dsimp only
  rw [dif_neg (show ¬ (3072 + k.val < 3072) by omega)]
  by_cases h6 : k.val < 6
  · rw [dif_pos (show 3072 + k.val < 3078 by omega)]
    refine (concatenate_apply_piece (1 : Fin S4096x128.rank) _ _ (ix2 (row t r) k) 0
      (by show (0 : Nat) < 4; omega) S4096x6 _ (by rfl) rfl 0 (by rfl)
      (ix2 (row t r) (⟨k.val, h6⟩ : Fin 6)) (fun b => match b with
        | ⟨0, _⟩ => fun _ => rfl
        | ⟨1, _⟩ => fun hb => absurd rfl hb)
      (by show 0 + k.val = k.val; omega)).trans ?_
    exact shapeCast_apply x1 shapeCasts_S8x512x6_S4096x6 _ _
      (by rewrite [Shape.rowMajor_val_three, Shape.rowMajor_val_two]
          show (t.val * 512 + r.val) * 6 + (3072 + k.val - 3072) = (512 * t.val + r.val) * 6 + k.val
          omega)
  · rw [dif_neg (show ¬ (3072 + k.val < 3078) by omega)]
    by_cases h10 : k.val < 10
    · rw [dif_pos (show 3072 + k.val < 3082 by omega)]
      refine (concatenate_apply_piece (1 : Fin S4096x128.rank) _ _ (ix2 (row t r) k) 1
      (by show (1 : Nat) < 4; omega) S4096x4 _ (by rfl) rfl 6 (by rfl)
        (ix2 (row t r) (⟨k.val - 6, by omega⟩ : Fin 4)) (fun b => match b with
          | ⟨0, _⟩ => fun _ => rfl
          | ⟨1, _⟩ => fun hb => absurd rfl hb)
        (by show 6 + (k.val - 6) = k.val; omega)).trans ?_
      exact shapeCast_apply x2 shapeCasts_S8x512x4_S4096x4 _ _
        (by rewrite [Shape.rowMajor_val_three, Shape.rowMajor_val_two]
            show (t.val * 512 + r.val) * 4 + (3072 + k.val - 3078) = (512 * t.val + r.val) * 4 + (k.val - 6)
            omega)
    · rw [dif_neg (show ¬ (3072 + k.val < 3082) by omega)]
      refine (concatenate_apply_piece (1 : Fin S4096x128.rank) _ _ (ix2 (row t r) k) 2
      (by show (2 : Nat) < 4; omega) S4096x51 _ (by rfl) rfl 10 (by rfl)
        (ix2 (row t r) (⟨k.val - 10, by omega⟩ : Fin 51)) (fun b => match b with
          | ⟨0, _⟩ => fun _ => rfl
          | ⟨1, _⟩ => fun hb => absurd rfl hb)
        (by show 10 + (k.val - 10) = k.val; omega)).trans ?_
      exact shapeCast_apply x3 shapeCasts_S8x512x17x3_S4096x51 _ _
        (by rewrite [Shape.rowMajor_val_four, Shape.rowMajor_val_two]
            show ((t.val * 512 + r.val) * 17 + (3072 + k.val - 3082) / 3) * 3 + (3072 + k.val - 3082) % 3
              = (512 * t.val + r.val) * 51 + (k.val - 10)
            omega)

theorem wEmb_at (x5 : FVec Ideal S1024x3133 .f32) (k : Fin 3072) (n : Fin 1024) :
    wEmb x5 (ix2 k n) = x5 (ix2 n ⟨k.val, by have := k.isLt; omega⟩) := by
  unfold wEmb
  refine (extractStridedSlice_apply ![0, 0] (wT x5) slices_S3133x1024_S3072x1024_0_0 (ix2 k n)
    (ix2 (⟨k.val, by have := k.isLt; omega⟩ : Fin 3133) n) (fun a => match a with
      | ⟨0, _⟩ => by show k.val = 0 + k.val; omega
      | ⟨1, _⟩ => by show n.val = 0 + n.val; omega)).trans ?_
  unfold wT
  rw [truncf_apply]
  exact transpose_apply [1, 0] x5 transposes_S1024x3133_S3133x1024_1_0 _ _ (fun b => match b with
    | ⟨0, _⟩ => rfl
    | ⟨1, _⟩ => rfl)

theorem wSmall_at (x5 : FVec Ideal S1024x3133 .f32) (k : Fin 128) (n : Fin 1024) (h : k.val < 61) :
    wSmall x5 (ix2 k n) = x5 (ix2 n ⟨3072 + k.val, by omega⟩) := by
  unfold wSmall
  refine (concatenate_pair_apply_left (0 : Fin S128x1024.rank) _ _ concatenates_S61x1024_S67x1024_S128x1024_d0 (ix2 k n) rfl
    (ix2 (⟨k.val, h⟩ : Fin 61) n) (fun b => match b with
      | ⟨0, _⟩ => rfl
      | ⟨1, _⟩ => rfl)).trans ?_
  refine (extractStridedSlice_apply ![3072, 0] (wT x5) slices_S3133x1024_S61x1024_3072_0 (ix2 (⟨k.val, h⟩ : Fin 61) n)
    (ix2 (⟨3072 + k.val, by omega⟩ : Fin 3133) n) (fun a => match a with
      | ⟨0, _⟩ => rfl
      | ⟨1, _⟩ => by show n.val = 0 + n.val; omega)).trans ?_
  unfold wT
  rw [truncf_apply]
  exact transpose_apply [1, 0] x5 transposes_S1024x3133_S3133x1024_1_0 _ _ (fun b => match b with
    | ⟨0, _⟩ => rfl
    | ⟨1, _⟩ => rfl)

theorem wSmall_pad (x5 : FVec Ideal S1024x3133 .f32) (k : Fin 128) (n : Fin 1024) (h : 61 ≤ k.val) :
    wSmall x5 (ix2 k n) = 0 := by
  unfold wSmall
  refine (concatenate_pair_apply_right (0 : Fin S128x1024.rank) _ _ concatenates_S61x1024_S67x1024_S128x1024_d0 (ix2 k n) rfl rfl
    (ix2 (⟨k.val - 61, by have := k.isLt; omega⟩ : Fin 67) n) (fun b => match b with
      | ⟨0, _⟩ => fun hb => absurd rfl hb
      | ⟨1, _⟩ => fun _ => rfl)
    (by show (k.val - 61) + 61 = k.val; omega)).trans ?_
  refine (broadcastInDim_apply _ bcast_S_S67x1024 _ _ (fun a => a.elim0) (fun a => a.elim0)).trans ?_
  rw [constant_apply]
  exact Ideal.ofBits_zero_bf16

theorem biasRow_at (x6 : FVec Ideal S1024 .f32) (n : Fin 1024) :
    biasRow x6 (ix2 (0 : Fin 1) n) = x6 (ix1 n) := by
  unfold biasRow
  exact shapeCast_apply x6 shapeCasts_S1024_S1x1024 (ix2 (0 : Fin 1) n) (ix1 n)
    (by rewrite [Shape.rowMajor_val_one, Shape.rowMajor_val_two]
        show n.val = 0 * 1024 + n.val
        omega)

theorem maskCol_at (x4 : IVec S8x512 1) (t : Fin 8) (r : Fin 512) :
    maskCol x4 (ix2 (row t r) (0 : Fin 1)) = (((x4 (ix2 t r)).toNat : ℝ) : EReal) := by
  unfold maskCol
  show (((shapeCast S4096x1 x4 shapeCasts_S8x512_S4096x1 (ix2 (row t r) (0 : Fin 1))).toNat : ℝ) : EReal) = _
  rw [shapeCast_apply x4 shapeCasts_S8x512_S4096x1 (ix2 (row t r) (0 : Fin 1)) (ix2 t r)
    (by rewrite [Shape.rowMajor_val_two, Shape.rowMajor_val_two]
        show t.val * 512 + r.val = (512 * t.val + r.val) * 1 + 0
        omega)]

end Cert.KernelIdeal.HostArrays

end
-- ==== Proof.Bridge.lean ====
/-
  The kernel side joined to the specification.  One 4096 x 1024 array holds, at (row, n), the two partial inner
  products of the row's embedding and small features with column n of the two weight pieces, plus the bias,
  times the row's mask number; re-laid as 8 x 512 x 1024 and with the six arrays the host lines prepare put in,
  it is the masked projection: row 512 * b + s is token (b, s), the embedding piece is the first 3072 features
  and the 128 padded columns are the remaining 61 followed by zero-weighted padding.
-/
import proofs.«163188_g40767829574297_cont_8to1_b_728_15_alg».proof.Proof.HostArrays
import proofs.«163188_g40767829574297_cont_8to1_b_728_15_alg».proof.Proof.Spec
import Idealize.ShloMosaic.Lib.Pipeline.Value

noncomputable section

open scoped BigOperators

namespace Cert.KernelIdeal.Bridge

open Cert.KernelIdeal Cert.KernelIdeal.Facts₀ Cert.KernelIdeal.HostArrays Cert.MaskedProj
open Idealize.ShloMosaic Idealize.ShloMosaic.ValueIdx

/-- The region's result array as one function of its six input arrays. -/
def blockProj (A0 : FVec Ideal S4096x3072 .f32) (A1 : FVec Ideal S4096x128 .f32) (A2 : FVec Ideal S3072x1024 .bf16)
    (A3 : FVec Ideal S128x1024 .bf16) (A4 : FVec Ideal S1x1024 .f32) (A5 : FVec Ideal S4096x1 .f32) :
    FVec Ideal S4096x1024 .f32 :=
  fun i => (((∑ k : Fin 3072, A0 (ix2 (i 0) k) * A2 (ix2 k (i 1))) + (∑ k : Fin 128, A1 (ix2 (i 0) k) * A3 (ix2 k (i 1))))
      + A4 (ix2 (0 : Fin 1) (i 1))) * A5 (ix2 (i 0) (0 : Fin 1))

/-- Re-laid by token, the region's result over the host-prepared arrays is the masked projection. -/
theorem bridge (x0 : FVec Ideal S8x512x3072 .f32) (x1 : FVec Ideal S8x512x6 .f32) (x2 : FVec Ideal S8x512x4 .f32)
    (x3 : FVec Ideal S8x512x17x3 .f32) (x4 : IVec S8x512 1) (x5 : FVec Ideal S1024x3133 .f32) (x6 : FVec Ideal S1024 .f32) :
    shapeCast S8x512x1024 (blockProj (embRows x0) (smallRows x1 x2 x3) (wEmb x5) (wSmall x5) (biasRow x6) (maskCol x4))
        shapeCasts_S4096x1024_S8x512x1024
      = maskedProj x0 x1 x2 x3 x4 x5 x6 := by
  funext i
  obtain ⟨b, s, n, rfl⟩ : ∃ (b : Fin 8) (s : Fin 512) (n : Fin 1024), i = ix3 b s n := ⟨i 0, i 1, i 2, eq_ix3 i⟩
  rw [shapeCast_apply _ shapeCasts_S4096x1024_S8x512x1024 (ix3 b s n) (ix2 (row b s) n) (by
    rw [Shape.rowMajor_val_two, Shape.rowMajor_val_three]
    show (512 * b.val + s.val) * 1024 + n.val = (b.val * 512 + s.val) * 1024 + n.val
    omega)]
  show (((∑ k : Fin 3072, embRows x0 (ix2 (row b s) k) * wEmb x5 (ix2 k n))
        + (∑ k : Fin 128, smallRows x1 x2 x3 (ix2 (row b s) k) * wSmall x5 (ix2 k n)))
        + biasRow x6 (ix2 (0 : Fin 1) n)) * maskCol x4 (ix2 (row b s) (0 : Fin 1))
      = Scalar.select (x4 (ix2 b s)) ((∑ k : Fin 3133, featRow x0 x1 x2 x3 b s k * x5 (ix2 n k)) + x6 (ix1 n)) 0
  rw [maskCol_at, biasRow_at, mul_bit,
    sum_split (fun k => featRow x0 x1 x2 x3 b s k) (fun k => x5 (ix2 n k))
      (fun k => embRows x0 (ix2 (row b s) k)) (fun k => wEmb x5 (ix2 k n))
      (fun k => smallRows x1 x2 x3 (ix2 (row b s) k)) (fun k => wSmall x5 (ix2 k n))
      (fun k => by rw [embRows_at]; unfold featRow; rw [dif_pos k.isLt])
      (fun k => wEmb_at x5 k n)
      (fun k h => smallRows_at x0 x1 x2 x3 b s k h)
      (fun k h => wSmall_at x5 k n h)
      (fun k h => wSmall_pad x5 k n h)]

end Cert.KernelIdeal.Bridge

end
-- ==== Proof.KernelValue.lean ====
/-
  What the idealized kernel's run leaves in its result: the masked projection of the arguments.

  Grid point t handles the 512 rows 512 t .. 512 t + 511 of the 4096-row arrays — token rows (t, 0 .. 511) — and
  reads the two weight pieces and the bias whole.  What it writes back is therefore block t of ONE function of
  the six input arrays (blockProj), the 8 blocks tile the 4096 x 1024 result, and the result array ends as that
  function.  The host line after the region re-lays it as 8 x 512 x 1024; the six input arrays are the host-side
  re-layings of the arguments, and the bridge identifies the whole with the specification.
-/
import proofs.«163188_g40767829574297_cont_8to1_b_728_15_alg».proof.Proof.FrameIdeal
import proofs.«163188_g40767829574297_cont_8to1_b_728_15_alg».proof.Proof.Payload
import proofs.«163188_g40767829574297_cont_8to1_b_728_15_alg».proof.Proof.HostArrays
import proofs.«163188_g40767829574297_cont_8to1_b_728_15_alg».proof.Proof.Bridge
import Idealize.ShloMosaic.Lib.Pipeline.Value
import Idealize.ShloMosaic.Lib.StableHlo.Run

set_option maxRecDepth 16384

noncomputable section

open scoped BigOperators

namespace Cert.KernelIdeal.KVal

open Cert.KernelIdeal Cert.KernelIdeal.Gen Cert.KernelIdeal.Frm Cert.KernelIdeal.HostArrays Cert.KernelIdeal.Bridge
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The six arrays the region finds are the host-side re-layings of the arguments. -/
theorem V_v0 (c : Dev nD) : (V m c main_v0 : S4096x3072.Idx → EReal) = embRows (m ((c : Thread nD τ).loc main_arg0)) := by
  show StableHlo.after hostOps0 (fun b => m (c, b)) (Proc.devRef .tc main_v0) = _
  after_results; rfl
theorem V_v5 (c : Dev nD) : (V m c main_v5 : S4096x128.Idx → EReal) = smallRows (m ((c : Thread nD τ).loc main_arg1)) (m ((c : Thread nD τ).loc main_arg2)) (m ((c : Thread nD τ).loc main_arg3)) := by
  show StableHlo.after hostOps0 (fun b => m (c, b)) (Proc.devRef .tc main_v5) = _
  after_results; rfl
theorem V_v11 (c : Dev nD) : (V m c main_v11 : S3072x1024.Idx → EReal) = wEmb (m ((c : Thread nD τ).loc main_arg5)) := by
  show StableHlo.after hostOps0 (fun b => m (c, b)) (Proc.devRef .tc main_v11) = _
  after_results; rfl
theorem V_v14 (c : Dev nD) : (V m c main_v14 : S128x1024.Idx → EReal) = wSmall (m ((c : Thread nD τ).loc main_arg5)) := by
  show StableHlo.after hostOps0 (fun b => m (c, b)) (Proc.devRef .tc main_v14) = _
  after_results; rfl
theorem V_v8 (c : Dev nD) : (V m c main_v8 : S1x1024.Idx → EReal) = biasRow (m ((c : Thread nD τ).loc main_arg6)) := by
  show StableHlo.after hostOps0 (fun b => m (c, b)) (Proc.devRef .tc main_v8) = _
  after_results; rfl
theorem V_v7 (c : Dev nD) : (V m c main_v7 : S4096x1.Idx → EReal) = maskCol (m ((c : Thread nD τ).loc main_arg4)) := by
  show StableHlo.after hostOps0 (fun b => m (c, b)) (Proc.devRef .tc main_v7) = _
  after_results; rfl

/-- The zero offset of a whole-buffer access. -/
theorem hz : (![0, 0] : Fin 2 → Nat) = fun _ => 0 := funext fun a => by fin_cases a <;> rfl

/-- The index maps over the grid: the row-blocked windows sit at block (t, 0), the whole-array windows at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `blockProj` of the six arrays as the region finds them: entry (r, n) of the
    stored value reads row 512 t + r of the row-blocked arrays and column n of the whole ones. -/
theorem flushed_eq (c : Dev nD) (t : Fin cfg0.N) :
    (dats m 0 c).flushed 6 t = ((cfg0.win 6).blk t).view.read (Elt Ideal)
      (blockProj (V m c main_v0) (V m c main_v5) (V m c main_v11) (V m c main_v14) (V m c main_v8) (V m c main_v7)) := by
  show (cfg0.win 6).cut (grid0.coords t) ((dats m 0 c).after 6 t) = _
  rw [after_out]
  unfold outBlk
  rw [View.canon_unit_zero hz]
  simp only [View.ld_unit_zero (S := S512x3072) hz, View.ld_unit_zero (S := S512x128) hz, View.ld_unit_zero (S := S3072x1024) hz,
    View.ld_unit_zero (S := S128x1024) hz, View.ld_unit_zero (S := S1x1024) hz, View.ld_unit_zero (S := S512x1) hz]
  funext j
  obtain ⟨r, n, rfl⟩ : ∃ (r : Fin 512) (n : Fin 1024), j = ix2 r n := ⟨j 0, j 1, eq_ix2 j⟩
  refine (Payload.pay_at _ _ _ _ _ _ r n).trans ?_
  obtain ⟨e00, e01, e10, e11, e20, e21, e30, e31, e40, e41, e50, e51, e60, e61⟩ := idx_facts t
  have ht : t.val < 8 := Nat.lt_of_lt_of_eq t.isLt N_0
  obtain ⟨R, hR⟩ : ∃ R : Fin 4096, R.val = t.val * 512 + r.val := ⟨⟨t.val * 512 + r.val, by have := r.isLt; omega⟩, rfl⟩
  have E0 : ∀ k : Fin 3072, ((cfg0.win 0).blk t).view.emb (ix2 r k) = (ix2 R k : S4096x3072.Idx) := fun k => by
    funext a; apply Fin.ext
    match a with
    | ⟨0, _⟩ => show win0_0.index t (0 : Fin 2) * 512 + 1 * r.val = R.val; omega
    | ⟨1, _⟩ => show win0_0.index t (1 : Fin 2) * 3072 + 1 * k.val = k.val; omega
  have E1 : ∀ k : Fin 128, ((cfg0.win 1).blk t).view.emb (ix2 r k) = (ix2 R k : S4096x128.Idx) := fun k => by
    funext a; apply Fin.ext
    match a with
    | ⟨0, _⟩ => show win0_1.index t (0 : Fin 2) * 512 + 1 * r.val = R.val; omega
    | ⟨1, _⟩ => show win0_1.index t (1 : Fin 2) * 128 + 1 * k.val = k.val; omega
  have E2 : ∀ k : Fin 3072, ((cfg0.win 2).blk t).view.emb (ix2 k n) = (ix2 k n : S3072x1024.Idx) := fun k => by
    funext a; apply Fin.ext
    match a with
    | ⟨0, _⟩ => show win0_2.index t (0 : Fin 2) * 3072 + 1 * k.val = k.val; omega
    | ⟨1, _⟩ => show win0_2.index t (1 : Fin 2) * 1024 + 1 * n.val = n.val; omega
  have E3 : ∀ k : Fin 128, ((cfg0.win 3).blk t).view.emb (ix2 k n) = (ix2 k n : S128x1024.Idx) := fun k => by
    funext a; apply Fin.ext
    match a with
    | ⟨0, _⟩ => show win0_3.index t (0 : Fin 2) * 128 + 1 * k.val = k.val; omega
    | ⟨1, _⟩ => show win0_3.index t (1 : Fin 2) * 1024 + 1 * n.val = n.val; omega
  have E4 : ((cfg0.win 4).blk t).view.emb (ix2 (0 : Fin 1) n) = (ix2 (0 : Fin 1) n : S1x1024.Idx) := by
    funext a; apply Fin.ext
    match a with
    | ⟨0, _⟩ => show win0_4.index t (0 : Fin 2) * 1 + 1 * 0 = 0; omega
    | ⟨1, _⟩ => show win0_4.index t (1 : Fin 2) * 1024 + 1 * n.val = n.val; omega
  have E5 : ((cfg0.win 5).blk t).view.emb (ix2 r (0 : Fin 1)) = (ix2 R (0 : Fin 1) : S4096x1.Idx) := by
    funext a; apply Fin.ext
    match a with
    | ⟨0, _⟩ => show win0_5.index t (0 : Fin 2) * 512 + 1 * r.val = R.val; omega
    | ⟨1, _⟩ => show win0_5.index t (1 : Fin 2) * 1 + 1 * 0 = 0; omega
  have E6 : ((cfg0.win 6).blk t).view.emb (ix2 r n) = (ix2 R n : S4096x1024.Idx) := by
    funext a; apply Fin.ext
    match a with
    | ⟨0, _⟩ => show win0_6.index t (0 : Fin 2) * 512 + 1 * r.val = R.val; omega
    | ⟨1, _⟩ => show win0_6.index t (1 : Fin 2) * 1024 + 1 * n.val = n.val; omega
  have key : ∀ (A0 : S4096x3072.Idx → EReal) (A1 : S4096x128.Idx → EReal) (A2 : S3072x1024.Idx → EReal)
      (A3 : S128x1024.Idx → EReal) (A4 : S1x1024.Idx → EReal) (A5 : S4096x1.Idx → EReal),
      ((∑ k : Fin 3072, A0 (((cfg0.win 0).blk t).view.emb (ix2 r k)) * A2 (((cfg0.win 2).blk t).view.emb (ix2 k n)))
        + (∑ k : Fin 128, A1 (((cfg0.win 1).blk t).view.emb (ix2 r k)) * A3 (((cfg0.win 3).blk t).view.emb (ix2 k n)))
        + A4 (((cfg0.win 4).blk t).view.emb (ix2 (0 : Fin 1) n))) * A5 (((cfg0.win 5).blk t).view.emb (ix2 r (0 : Fin 1)))
      = blockProj A0 A1 A2 A3 A4 A5 (((cfg0.win 6).blk t).view.emb (ix2 r n)) := by
    intro A0 A1 A2 A3 A4 A5
    simp only [E0, E1, E2, E3, E4, E5, E6]
    rfl
  exact key (V m c main_v0) (V m c main_v5) (V m c main_v11) (V m c main_v14) (V m c main_v8) (V m c main_v7)

/-- An index of the result array is in point `t`'s block iff each coordinate is in the block's range on its axis. -/
theorem mem_blk (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v15).slice (win0_6.rect t)).set ↔ _
  rw [View.set_slice_whole, Rect.mem_set_unit]
  exact Iff.rfl

/-- Row `R` of the result lies in the block of point `R / 512`, and every point writes its block back. -/
theorem cover (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, htv⟩ : ∃ t : Fin cfg0.N, t.val = (i 0).val / 512 := ⟨⟨(i 0).val / 512, by rw [show cfg0.N = 8 from N_0]; omega⟩, rfl⟩
  refine ⟨t, flush0_6 t, ?_⟩
  rw [mem_blk]
  obtain ⟨-, -, -, -, -, -, -, -, -, -, -, -, e60, e61⟩ := idx_facts t
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The result array after the run, as one function of the six input arrays. -/
theorem final (c : Dev nD) : (dats m 0 c).arrAt 6 cfg0.N
    = blockProj (V m c main_v0) (V m c main_v5) (V m c main_v11) (V m c main_v14) (V m c main_v8) (V m c main_v7) :=
  (dats m 0 c).arrAt_eq_of_cover 6 _ (fun t _ => flushed_eq m c t) cover

/-- The host line after the region re-lays that array by token. -/
theorem tail_v16 (c : Dev nD) : Pipeline.afterTail₀ cfgs (dats m) 0 (V0 m) [hostOps1] c main_v16
    = shapeCast S8x512x1024 (blockProj (V m c main_v0) (V m c main_v5) (V m c main_v11) (V m c main_v14) (V m c main_v8) (V m c main_v7))
        Facts₀.shapeCasts_S4096x1024_S8x512x1024 := by
  unfold Pipeline.afterTail₀
  show StableHlo.after hostOps1 _ (Proc.devRef .tc main_v16) = _
  after_results
  have hw := (Pipeline.withArrays_arr spec0 launch0.win.arr_inj c (V0 m c) (fun w => (dats m 0 c).arrAt w (cfgs 0).N) 6).trans (final m c)
  refine Eq.trans ?_ (congrArg (fun x => shapeCast S8x512x1024 x Facts₀.shapeCasts_S4096x1024_S8x512x1024) hw)
  rfl

/-- The idealized kernel's run: the result ends at the masked projection of the arguments, and the arguments end
    unchanged. -/
theorem run : θ_run defs (onTc (τ := τ) (main (F := Ideal))) ⟨m, fun _ => 0, ρ⟩ fun r => ∀ c : Dev nD,
      r.2.mem ((c.tc : Thread nD τ).loc main_v16) = Cert.MaskedProj.maskedProj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      (((h c).2 main_v16 (Pipeline.mem_restRefs_of main_v16 (by decide) (by decide))).trans (tail_v16 m c)).trans (by
        rw [V_v0, V_v5, V_v11, V_v14, V_v8, V_v7]; exact bridge _ _ _ _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KVal

end
-- ==== Proof.RefValue.lean ====
/-
  The reference program's result, read at an index, is the masked projection of the specification.
-/
import proofs.«163188_g40767829574297_cont_8to1_b_728_15_alg».proof.Proof.Gen.ReferenceIdeal.Read
import proofs.«163188_g40767829574297_cont_8to1_b_728_15_alg».proof.Proof.Spec

noncomputable section

open scoped BigOperators

namespace Cert.ReferenceIdeal.RefValue

open Cert.ReferenceIdeal Idealize.ShloMosaic Idealize.ShloMosaic.ValueIdx

/-- Off the joined axis a piece's index at `(b, s, ·)` has the coordinates `b` and `s` of the joined index. -/
theorem off_axis {n m : Nat} (b : Fin 8) (s : Fin 512) (q : Fin n) (k : Fin m)
    (bb : Fin 3) (hb : bb.val ≠ 2) :
    ((ix3 b s q) bb).val = ((ix3 b s k) bb).val := by
  match bb with
  | ⟨0, _⟩ => rfl
  | ⟨1, _⟩ => rfl
  | ⟨2, _⟩ => exact absurd rfl hb

/-- The joined feature array at `(b, s, k)` is feature `k` of token row `(b, s)`: the piece whose span along
    the last axis holds `k`, read at `k` less the extents before it; the last piece is the keypoints, whose
    flattened position `q` is joint `q / 3`, coordinate `q % 3`. -/
theorem cat_at (x0 : (⟨S8x512x3072, .f32⟩ : BufTy).Contents (Elt Ideal)) (x1 : (⟨S8x512x6, .f32⟩ : BufTy).Contents (Elt Ideal))
    (x2 : (⟨S8x512x4, .f32⟩ : BufTy).Contents (Elt Ideal)) (x3 : (⟨S8x512x17x3, .f32⟩ : BufTy).Contents (Elt Ideal))
    (b : Fin 8) (s : Fin 512) (k : Fin 3133) :
    Read.val_main_v1 (F := Ideal) x0 x1 x2 x3 (ix3 b s k) = Cert.MaskedProj.featRow x0 x1 x2 x3 b s k := by
  unfold Cert.MaskedProj.featRow Read.val_main_v1
  split_ifs with h0 h1 h2
  · exact concatenate_apply_piece (t := S8x512x3133) (2 : Fin 3) [⟨S8x512x3072, x0⟩, ⟨S8x512x6, x1⟩, ⟨S8x512x4, x2⟩, ⟨S8x512x51, Read.val_main_v0 (F := Ideal) x3⟩] _ (ix3 b s k) 0 (Nat.zero_lt_succ _) S8x512x3072 x0 rfl rfl 0 rfl
      (ix3 b s ⟨k.val, h0⟩) (fun bb hb => off_axis b s _ k bb fun h => hb (Fin.ext h)) (Nat.zero_add _)
  · exact concatenate_apply_piece (t := S8x512x3133) (2 : Fin 3) [⟨S8x512x3072, x0⟩, ⟨S8x512x6, x1⟩, ⟨S8x512x4, x2⟩, ⟨S8x512x51, Read.val_main_v0 (F := Ideal) x3⟩] _ (ix3 b s k) 1 (Nat.succ_lt_succ (Nat.zero_lt_succ _)) S8x512x6 x1 rfl rfl 3072 rfl
      (ix3 b s ⟨k.val - 3072, by omega⟩) (fun bb hb => off_axis b s _ k bb fun h => hb (Fin.ext h))
      (by show 3072 + (k.val - 3072) = k.val; omega)
  · exact concatenate_apply_piece (t := S8x512x3133) (2 : Fin 3) [⟨S8x512x3072, x0⟩, ⟨S8x512x6, x1⟩, ⟨S8x512x4, x2⟩, ⟨S8x512x51, Read.val_main_v0 (F := Ideal) x3⟩] _ (ix3 b s k) 2 (Nat.succ_lt_succ (Nat.succ_lt_succ (Nat.zero_lt_succ _))) S8x512x4 x2 rfl rfl 3078 rfl
      (ix3 b s ⟨k.val - 3078, by omega⟩) (fun bb hb => off_axis b s _ k bb fun h => hb (Fin.ext h))
      (by show 3078 + (k.val - 3078) = k.val; omega)
  · have hk := k.isLt
    refine (concatenate_apply_piece (t := S8x512x3133) (2 : Fin 3) [⟨S8x512x3072, x0⟩, ⟨S8x512x6, x1⟩, ⟨S8x512x4, x2⟩, ⟨S8x512x51, Read.val_main_v0 (F := Ideal) x3⟩] _ (ix3 b s k) 3 (Nat.succ_lt_succ (Nat.succ_lt_succ (Nat.succ_lt_succ (Nat.zero_lt_succ _)))) S8x512x51 (Read.val_main_v0 (F := Ideal) x3)
      rfl rfl 3082 rfl (ix3 b s ⟨k.val - 3082, by omega⟩) (fun bb hb => off_axis b s _ k bb fun h => hb (Fin.ext h))
      (by show 3082 + (k.val - 3082) = k.val; omega)).trans ?_
    rw [Read.val_main_v0_apply]
    congr 1
    funext a
    apply Fin.ext
    have hb := b.isLt
    have hs := s.isLt
    match a with
    | ⟨0, _⟩ => show ((b.val * 512 + s.val) * 51 + (k.val - 3082)) / 26112 = b.val; omega
    | ⟨1, _⟩ => show ((b.val * 512 + s.val) * 51 + (k.val - 3082)) / 51 % 512 = s.val; omega
    | ⟨2, _⟩ => show ((b.val * 512 + s.val) * 51 + (k.val - 3082)) / 3 % 17 = (k.val - 3082) / 3; omega
    | ⟨3, _⟩ => show ((b.val * 512 + s.val) * 51 + (k.val - 3082)) % 3 = (k.val - 3082) % 3; omega

/-- The reference's composed term is the masked projection of its seven arguments. -/
theorem ref_is_proj (x0 : (⟨S8x512x3072, .f32⟩ : BufTy).Contents (Elt Ideal)) (x1 : (⟨S8x512x6, .f32⟩ : BufTy).Contents (Elt Ideal))
    (x2 : (⟨S8x512x4, .f32⟩ : BufTy).Contents (Elt Ideal)) (x3 : (⟨S8x512x17x3, .f32⟩ : BufTy).Contents (Elt Ideal))
    (x4 : (⟨S8x512, .i1⟩ : BufTy).Contents (Elt Ideal)) (x5 : (⟨S1024x3133, .f32⟩ : BufTy).Contents (Elt Ideal))
    (x6 : (⟨S1024, .f32⟩ : BufTy).Contents (Elt Ideal)) :
    Cert.ReferenceIdeal.Read.val_main_v7 (F := Ideal) x0 x1 x2 x3 x4 x5 x6
      = Cert.MaskedProj.maskedProj x0 x1 x2 x3 x4 x5 x6 := by
  funext i
  -- the mask bit, the bias and the two operands of the contraction are read at the row, the column and (row, k), (column, k)
  have ebit : Read.idx_main_v6 (Read.idx_main_call0_v0 i) = ix2 (i 0) (i 1) :=
    funext fun a => Fin.ext (by match a with | ⟨0, _⟩ => rfl | ⟨1, _⟩ => rfl)
  have ebias : Read.idx_main_v3 (Read.idx_main_v4 i) = ix1 (i 2) :=
    funext fun a => Fin.ext (by match a with | ⟨0, _⟩ => rfl)
  have el : ∀ k : Fin 3133, Read.lidx_main_v2 i k = ix3 (i 0) (i 1) k := fun k =>
    funext fun a => Fin.ext (by match a with | ⟨0, _⟩ => rfl | ⟨1, _⟩ => rfl | ⟨2, _⟩ => rfl)
  have er : ∀ k : Fin 3133, Read.ridx_main_v2 i k = ix2 (i 2) k := fun k =>
    funext fun a => Fin.ext (by match a with | ⟨0, _⟩ => rfl | ⟨1, _⟩ => rfl)
  have hsum : (∑ k : Fin 3133, Read.val_main_v1 (F := Ideal) x0 x1 x2 x3 (Read.lidx_main_v2 i k) * x5 (Read.ridx_main_v2 i k))
      = ∑ k : Fin 3133, Cert.MaskedProj.featRow x0 x1 x2 x3 (i 0) (i 1) k * x5 (ix2 (i 2) k) :=
    Finset.sum_congr rfl fun k _ => by
      rw [el k, er k]
      exact congrArg (· * x5 (ix2 (i 2) k)) (cat_at x0 x1 x2 x3 (i 0) (i 1) k)
  rw [Read.val_main_v7_apply, Read.val_main_call0_v0_apply, Read.val_main_v6_apply, Read.val_main_call0_v1_apply,
    Read.val_main_cst_apply, Read.val_main_v5_apply, Read.val_main_v2_apply, Read.val_main_v4_apply, Read.val_main_v3_apply,
    ebit, ebias, hsum, Ideal.ofBits_def, Ideal.ofBits_zero_f32, Ideal.addf_def]
  rfl

end Cert.ReferenceIdeal.RefValue

end
-- ==== Proof.lean ====
/-
  The certificate's five claims.

  Both printed kernels (the word-level one and its idealization have the same text) run to the end of the
  program without a fault and leave the seven arguments unchanged: the host lines only re-lay arguments into
  fresh arrays, the region's body reads its input blocks and overwrites its output block, and the last host line
  writes the result only.  The reference is a straight line of host operations, so its run is its operations'
  composed term.  The idealization rewrote nothing, so there is nothing to preserve.  At the ideal instance the
  kernel's result and the reference's are both the masked projection of the arguments: per token row, the inner
  product of the 3133 concatenated features with a weight row plus the bias, kept where the mask bit is set and 0
  elsewhere — the kernel's split of the features into 3072 + 61 (+ 67 zero-weighted pads) regroups a finite sum,
  and its product with the bit's number 0 or 1 is the selection by the bit.
-/
import proofs.«163188_g40767829574297_cont_8to1_b_728_15_alg».proof.Defs
import proofs.«163188_g40767829574297_cont_8to1_b_728_15_alg».proof.Proof.Gen.Kernel
import proofs.«163188_g40767829574297_cont_8to1_b_728_15_alg».proof.Proof.Gen.KernelIdeal
import proofs.«163188_g40767829574297_cont_8to1_b_728_15_alg».proof.Proof.Gen.ReferenceIdeal
import proofs.«163188_g40767829574297_cont_8to1_b_728_15_alg».proof.Proof.Gen.Pre_finite_inputs
import proofs.«163188_g40767829574297_cont_8to1_b_728_15_alg».proof.Proof.Gen.ReferenceIdeal.Run
import proofs.«163188_g40767829574297_cont_8to1_b_728_15_alg».proof.Proof.Gen.ReferenceIdeal.Read
import proofs.«163188_g40767829574297_cont_8to1_b_728_15_alg».proof.Proof.FrameBits
import proofs.«163188_g40767829574297_cont_8to1_b_728_15_alg».proof.Proof.FrameIdeal
import proofs.«163188_g40767829574297_cont_8to1_b_728_15_alg».proof.Proof.KernelValue
import proofs.«163188_g40767829574297_cont_8to1_b_728_15_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the masked projection of arguments that agree. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v7_eq, Cert.ReferenceIdeal.RefValue.ref_is_proj, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
